-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512x1024 : Shape := ⟨2, ![512, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x512 .f32) (main_arg10 : FVec F S512 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x512 .f32 := Host.absf main_arg9
  let main_cst_16 : FVec F S_ .f32 := constant S_ .f32 0x7F800000#32
  let main_v45 : FVec F S1024x512 .f32 := broadcastInDim S1024x512 ![] bcast_S_S1024x512 main_cst_16
  let main_v46 : IVec S1024x512 1 := cmpf .olt main_v44 main_v45
  let main_c_17 : IVec S_ 1 := constantI S_ 1 1#1
  let main_v47 : IVec S_ 1 := (fun x v => Host.reduce IntOp.andi x v reducesTo_S1024x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x512 .f32) (main_arg10 : FVec F S512 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S65536x512 .f32) (main_arg1 : FVec F S512x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x512 .f32) (main_arg10 : FVec F S512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S65536x512 : Shape := ⟨2, ![65536, 512]⟩
abbrev S512x1024 : Shape := ⟨2, ![512, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S_ : Shape := ⟨0, ![]⟩
abbrev S1x1024 : Shape := ⟨2, ![1, 1024]⟩
abbrev S1x512 : Shape := ⟨2, ![1, 512]⟩

abbrev nBuf : Space → Nat
  | .hbm => 62
  | .vmem => 9
  | .smem => 0
  | _ => 0

abbrev bufTy : (tb : Table) → Fin (tcTables nBuf tb) → BufTy
  | .hbm, ⟨0, _⟩ => ⟨S65536x512, .f32⟩
  | .hbm, ⟨1, _⟩ => ⟨S512x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x512, .f32⟩
  | .hbm, ⟨10, _⟩ => ⟨S512, .f32⟩
  | .hbm, ⟨11, _⟩ => ⟨S512x1024, .f32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S512x1024, .f32⟩
  | .hbm, ⟨19, _⟩ => ⟨S512x1024, .f32⟩
  | .hbm, ⟨20, _⟩ => ⟨S512x1024, .bf16⟩
  | .hbm, ⟨21, _⟩ => ⟨S1024x1024, .f32⟩
  | .hbm, ⟨22, _⟩ => ⟨S_, .f32⟩
  | .hbm, ⟨23, _⟩ => ⟨S1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1024x1024, .f32⟩
  | .hbm, ⟨29, _⟩ => ⟨S1024x1024, .f32⟩
  | .hbm, ⟨30, _⟩ => ⟨S1024x1024, .bf16⟩
  | .hbm, ⟨31, _⟩ => ⟨S1024x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1024x1024, .f32⟩
  | .hbm, ⟨39, _⟩ => ⟨S1024x1024, .f32⟩
  | .hbm, ⟨40, _⟩ => ⟨S1024x1024, .bf16⟩
  | .hbm, ⟨41, _⟩ => ⟨S1024x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S1024x1024, .f32⟩
  | .hbm, ⟨49, _⟩ => ⟨S1024x1024, .f32⟩
  | .hbm, ⟨50, _⟩ => ⟨S1024x1024, .bf16⟩
  | .hbm, ⟨51, _⟩ => ⟨S1024x512, .f32⟩
  | .hbm, ⟨52, _⟩ => ⟨S_, .f32⟩
  | .hbm, ⟨53, _⟩ => ⟨S512, .f32⟩
  | .hbm, ⟨54, _⟩ => ⟨S1x512, .f32⟩
  | .hbm, ⟨55, _⟩ => ⟨S1x512, .f32⟩
  | .hbm, ⟨56, _⟩ => ⟨S1x512, .f32⟩
  | .hbm, ⟨57, _⟩ => ⟨S1x512, .f32⟩
  | .hbm, ⟨58, _⟩ => ⟨S1024x512, .f32⟩
  | .hbm, ⟨59, _⟩ => ⟨S1024x512, .f32⟩
  | .hbm, ⟨60, _⟩ => ⟨S1024x512, .bf16⟩
  | .hbm, ⟨61, _⟩ => ⟨S65536x512, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .bf16⟩
  | .local _ .vmem, ⟨7, _⟩ => ⟨S1024x512, .f32⟩
  | .local _ .vmem, ⟨8, _⟩ => ⟨S1024x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S512x1024_S1024_d0 : S512x1024.ReducesTo [0] S1024
  h_S_ : 0 < S_.numel
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  bitsLt_bf16_f32 : FTy.bits .bf16 < FTy.bits .f32
  reducesTo_S1024x1024_S1024_d0 : S1024x1024.ReducesTo [0] S1024
  bcast_S1x1024_S1024x1024_0_1 : S1x1024.BroadcastsInDim S1024x1024 (![0, 1] : Fin 2 → Fin S1024x1024.rank)
  reducesTo_S1024x512_S512_d0 : S1024x512.ReducesTo [0] S512
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  inb_S1024x512_S1024x512_0_0 : ∀ a, (![0, 0] : Fin 2 → Nat) a + S1024x512.size a ≤ S1024x512.size a
  h_S1024x512 : 0 < S1024x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024x512_S1024x512 : S1024x512.ShapeCasts S1024x512
  dot_S1024x512_S512x1024_S1024x1024_1_0_0_1_n_n_wf : DotDims.WF S1024x512 S512x1024 S1024x1024 [1] [0] [0] [1] [] []
  dot_S1024x1024_S1024x1024_S1024x1024_1_0_0_1_n_n_wf : DotDims.WF S1024x1024 S1024x1024 S1024x1024 [1] [0] [0] [1] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x512.size a
  hwx0_5 : ∀ i : grid0.Coords, EltTy.bits .bf16 = 32 ∨ (Rect.block (s := S1024x512) S1024x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S65536x512.size a
  hwx0_6 : ∀ i : grid0.Coords, EltTy.bits .f32 = 32 ∨ (Rect.block (s := S65536x512) S1024x512.size (cc0_transform_6 i) (hinb0_6 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v44) S1024x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v45) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S65536x512 : Shape := ⟨2, ![65536, 512]⟩
abbrev S512x1024 : Shape := ⟨2, ![512, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S_ : Shape := ⟨0, ![]⟩
abbrev S1x1024 : Shape := ⟨2, ![1, 1024]⟩
abbrev S1x512 : Shape := ⟨2, ![1, 512]⟩
abbrev S65536x1024 : Shape := ⟨2, ![65536, 1024]⟩

abbrev nBuf : Space → Nat
  | .hbm => 117
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S512x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x512, .f32⟩
  | .hbm, ⟨10, _⟩ => ⟨S512, .f32⟩
  | .hbm, ⟨11, _⟩ => ⟨S512x1024, .f32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S512x1024, .f32⟩
  | .hbm, ⟨19, _⟩ => ⟨S512x1024, .f32⟩
  | .hbm, ⟨20, _⟩ => ⟨S1024x1024, .f32⟩
  | .hbm, ⟨21, _⟩ => ⟨S_, .f32⟩
  | .hbm, ⟨22, _⟩ => ⟨S1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1024x1024, .f32⟩
  | .hbm, ⟨37, _⟩ => ⟨S1024x1024, .f32⟩
  | .hbm, ⟨38, _⟩ => ⟨S1024x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S1024x1024, .f32⟩
  | .hbm, ⟨46, _⟩ => ⟨S1024x1024, .f32⟩
  | .hbm, ⟨47, _⟩ => ⟨S1024x512, .f32⟩
  | .hbm, ⟨48, _⟩ => ⟨S_, .f32⟩
  | .hbm, ⟨49, _⟩ => ⟨S512, .f32⟩
  | .hbm, ⟨50, _⟩ => ⟨S1x512, .f32⟩
  | .hbm, ⟨51, _⟩ => ⟨S1x512, .f32⟩
  | .hbm, ⟨52, _⟩ => ⟨S1x512, .f32⟩
  | .hbm, ⟨53, _⟩ => ⟨S1x512, .f32⟩
  | .hbm, ⟨54, _⟩ => ⟨S1024x512, .f32⟩
  | .hbm, ⟨55, _⟩ => ⟨S1024x512, .f32⟩
  | .hbm, ⟨56, _⟩ => ⟨S65536x1024, .f32⟩
  | .hbm, ⟨57, _⟩ => ⟨S_, .f32⟩
  | .hbm, ⟨58, _⟩ => ⟨S65536x1024, .f32⟩
  | .hbm, ⟨59, _⟩ => ⟨S65536x1024, .f32⟩
  | .hbm, ⟨60, _⟩ => ⟨S65536x1024, .f32⟩
  | .hbm, ⟨61, _⟩ => ⟨S65536x1024, .f32⟩
  | .hbm, ⟨62, _⟩ => ⟨S65536x1024, .i1⟩
  | .hbm, ⟨63, _⟩ => ⟨S65536x1024, .f32⟩
  | .hbm, ⟨64, _⟩ => ⟨S65536x1024, .f32⟩
  | .hbm, ⟨65, _⟩ => ⟨S65536x1024, .f32⟩
  | .hbm, ⟨66, _⟩ => ⟨S65536x1024, .f32⟩
  | .hbm, ⟨67, _⟩ => ⟨S65536x1024, .f32⟩
  | .hbm, ⟨68, _⟩ => ⟨S65536x1024, .f32⟩
  | .hbm, ⟨69, _⟩ => ⟨S65536x1024, .f32⟩
  | .hbm, ⟨70, _⟩ => ⟨S65536x1024, .f32⟩
  | .hbm, ⟨71, _⟩ => ⟨S65536x1024, .f32⟩
  | .hbm, ⟨72, _⟩ => ⟨S_, .f32⟩
  | .hbm, ⟨73, _⟩ => ⟨S65536x1024, .f32⟩
  | .hbm, ⟨74, _⟩ => ⟨S65536x1024, .f32⟩
  | .hbm, ⟨75, _⟩ => ⟨S65536x1024, .f32⟩
  | .hbm, ⟨76, _⟩ => ⟨S65536x1024, .f32⟩
  | .hbm, ⟨77, _⟩ => ⟨S65536x1024, .i1⟩
  | .hbm, ⟨78, _⟩ => ⟨S65536x1024, .f32⟩
  | .hbm, ⟨79, _⟩ => ⟨S65536x1024, .f32⟩
  | .hbm, ⟨80, _⟩ => ⟨S65536x1024, .f32⟩
  | .hbm, ⟨81, _⟩ => ⟨S65536x1024, .f32⟩
  | .hbm, ⟨82, _⟩ => ⟨S65536x1024, .f32⟩
  | .hbm, ⟨83, _⟩ => ⟨S65536x1024, .f32⟩
  | .hbm, ⟨84, _⟩ => ⟨S65536x1024, .f32⟩
  | .hbm, ⟨85, _⟩ => ⟨S65536x1024, .f32⟩
  | .hbm, ⟨86, _⟩ => ⟨S65536x1024, .f32⟩
  | .hbm, ⟨87, _⟩ => ⟨S_, .f32⟩
  | .hbm, ⟨88, _⟩ => ⟨S65536x1024, .f32⟩
  | .hbm, ⟨89, _⟩ => ⟨S65536x1024, .f32⟩
  | .hbm, ⟨90, _⟩ => ⟨S65536x1024, .f32⟩
  | .hbm, ⟨91, _⟩ => ⟨S65536x1024, .f32⟩
  | .hbm, ⟨92, _⟩ => ⟨S65536x1024, .i1⟩
  | .hbm, ⟨93, _⟩ => ⟨S65536x1024, .f32⟩
  | .hbm, ⟨94, _⟩ => ⟨S65536x1024, .f32⟩
  | .hbm, ⟨95, _⟩ => ⟨S65536x1024, .f32⟩
  | .hbm, ⟨96, _⟩ => ⟨S65536x1024, .f32⟩
  | .hbm, ⟨97, _⟩ => ⟨S65536x1024, .f32⟩
  | .hbm, ⟨98, _⟩ => ⟨S65536x1024, .f32⟩
  | .hbm, ⟨99, _⟩ => ⟨S65536x1024, .f32⟩
  | .hbm, ⟨100, _⟩ => ⟨S65536x1024, .f32⟩
  | .hbm, ⟨101, _⟩ => ⟨S65536x1024, .f32⟩
  | .hbm, ⟨102, _⟩ => ⟨S_, .f32⟩
  | .hbm, ⟨103, _⟩ => ⟨S65536x1024, .f32⟩
  | .hbm, ⟨104, _⟩ => ⟨S65536x1024, .f32⟩
  | .hbm, ⟨105, _⟩ => ⟨S65536x1024, .f32⟩
  | .hbm, ⟨106, _⟩ => ⟨S65536x1024, .f32⟩
  | .hbm, ⟨107, _⟩ => ⟨S65536x1024, .i1⟩
  | .hbm, ⟨108, _⟩ => ⟨S65536x1024, .f32⟩
  | .hbm, ⟨109, _⟩ => ⟨S65536x1024, .f32⟩
  | .hbm, ⟨110, _⟩ => ⟨S65536x1024, .f32⟩
  | .hbm, ⟨111, _⟩ => ⟨S65536x1024, .f32⟩
  | .hbm, ⟨112, _⟩ => ⟨S65536x1024, .f32⟩
  | .hbm, ⟨113, _⟩ => ⟨S65536x1024, .f32⟩
  | .hbm, ⟨114, _⟩ => ⟨S65536x1024, .f32⟩
  | .hbm, ⟨115, _⟩ => ⟨S65536x1024, .f32⟩
  | .hbm, ⟨116, _⟩ => ⟨S65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_call0_cst : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_v8 : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_v41 : Ref sig .tc := ⟨.hbm, 70, rfl⟩
abbrev main_v42 : Ref sig .tc := ⟨.hbm, 71, rfl⟩
abbrev main_call1_cst : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_v6 : Ref sig .tc := ⟨.hbm, 79, rfl⟩
abbrev main_call1_v7 : Ref sig .tc := ⟨.hbm, 80, rfl⟩
abbrev main_call1_v8 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_v43 : Ref sig .tc := ⟨.hbm, 85, rfl⟩
abbrev main_v44 : Ref sig .tc := ⟨.hbm, 86, rfl⟩
abbrev main_call2_cst : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_v6 : Ref sig .tc := ⟨.hbm, 94, rfl⟩
abbrev main_call2_v7 : Ref sig .tc := ⟨.hbm, 95, rfl⟩
abbrev main_call2_v8 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_v45 : Ref sig .tc := ⟨.hbm, 100, rfl⟩
abbrev main_v46 : Ref sig .tc := ⟨.hbm, 101, rfl⟩
abbrev main_call3_cst : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_call3_v5 : Ref sig .tc := ⟨.hbm, 108, rfl⟩
abbrev main_call3_v6 : Ref sig .tc := ⟨.hbm, 109, rfl⟩
abbrev main_call3_v7 : Ref sig .tc := ⟨.hbm, 110, rfl⟩
abbrev main_call3_v8 : Ref sig .tc := ⟨.hbm, 111, rfl⟩
abbrev main_call3_v9 : Ref sig .tc := ⟨.hbm, 112, rfl⟩
abbrev main_call3_v10 : Ref sig .tc := ⟨.hbm, 113, rfl⟩
abbrev main_call3_v11 : Ref sig .tc := ⟨.hbm, 114, rfl⟩
abbrev main_v47 : Ref sig .tc := ⟨.hbm, 115, rfl⟩
abbrev main_v48 : Ref sig .tc := ⟨.hbm, 116, rfl⟩

abbrev nD : Nat := 1
abbrev τ : Topo := Topo.v7x

variable {F : FTy → Type} [FloatOps F]

class Facts₀ : Prop where
  reducesTo_S512x1024_S1024_d0 : S512x1024.ReducesTo [0] S1024
  h_S_ : 0 < S_.numel
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  reducesTo_S1024x1024_S1024_d0 : S1024x1024.ReducesTo [0] S1024
  bcast_S1x1024_S1024x1024_0_1 : S1x1024.BroadcastsInDim S1024x1024 (![0, 1] : Fin 2 → Fin S1024x1024.rank)
  reducesTo_S1024x512_S512_d0 : S1024x512.ReducesTo [0] S512
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S_S65536x1024 : S_.BroadcastsInDim S65536x1024 (![] : Fin 0 → Fin S65536x1024.rank)
  dot_S65536x512_S512x1024_S65536x1024_1_0_0_1_n_n_wf : DotDims.WF S65536x512 S512x1024 S65536x1024 [1] [0] [0] [1] [] []
  dot_S65536x1024_S1024x1024_S65536x1024_1_0_0_1_n_n_wf : DotDims.WF S65536x1024 S1024x1024 S65536x1024 [1] [0] [0] [1] [] []
  dot_S65536x1024_S1024x512_S65536x512_1_0_0_1_n_n_wf : DotDims.WF S65536x1024 S1024x512 S65536x512 [1] [0] [0] [1] [] []

variable [Facts₀]

def dot_S65536x512_S512x1024_S65536x1024_1_0_0_1_n_n : DotDims S65536x512 S512x1024 S65536x1024 where
  lhsContracting := [1]
  rhsContracting := [0]
  lhsNonContracting := [0]
  rhsNonContracting := [1]
  lhsBatch := []
  rhsBatch := []
  wf := dot_S65536x512_S512x1024_S65536x1024_1_0_0_1_n_n_wf
def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf
def dot_S65536x1024_S1024x512_S65536x512_1_0_0_1_n_n : DotDims S65536x1024 S1024x512 S65536x512 where
  lhsContracting := [1]
  rhsContracting := [0]
  lhsNonContracting := [0]
  rhsNonContracting := [1]
  lhsBatch := []
  rhsBatch := []
  wf := dot_S65536x1024_S1024x512_S65536x512_1_0_0_1_n_n_wf

class Facts : Prop extends Facts₀ where

variable [Facts]
-- ==== Proof.LibPlainMatmul.lean ====
/-
  A plain matrix product read at an entry.

  For the dimension numbers "contract the left operand's second axis with the right operand's first" an `[M, K]` by
  `[K, N]` product, accumulated into a zero array, has at row `p` and column `c` the entry
  `∑ k, W p k · X k c` over the extended reals: the contraction position is its one coordinate `k`, the left operand is
  read at `(p, k)` and the right one at `(k, c)`. The same reading holds of a host `dot_general` with those dimension
  numbers, which has no accumulator.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

variable (M K N : ℕ)

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction position. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction positions, re-indexed by the one coordinate. -/
theorem sum_contr {φ₁ φ₂ : FTy} (W : FVec Ideal ⟨2, ![M, K]⟩ φ₁) (X : FVec Ideal ⟨2, ![K, N]⟩ φ₂) (p : Fin M) (c : Fin N) :
    (∑ q : (DotDims.plain M K N).contr.Idx,
        W ((DotDims.plain M K N).lhsIdx (ix2 p c) q) * X ((DotDims.plain M K N).rhsIdx (ix2 p c) q))
      = ∑ k : Fin K, W (ix2 p k) * X (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_row M K N _ _).trans hk
      | ⟨1, _⟩ => exact rhs_col M K N _ _)
  rw [el, er]

/-- A kernel's matrix product into a zero accumulator, at an entry. -/
theorem matmul_zero_apply {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, W (ix2 p k) * X (ix2 k c) := by
  simp only [matmul]
  rw [Ideal.matmul_constant_zero_apply]
  exact sum_contr M K N W X p c

/-- The same with each product's factors swapped: the form in which a product computed in a transposed layout
    (`W · Xᵀ` laid out as features by batch) meets the row-major product `X · Wᵀ`. -/
theorem matmul_zero_apply_comm {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, X (ix2 k c) * W (ix2 p k) := by
  rw [matmul_zero_apply]
  exact Finset.sum_congr rfl fun k _ => mul_comm _ _

/-- A host product, at an entry. -/
theorem dotGeneral_apply {φ₁ φ₂ : FTy} (prec : Option ContractPrecision) (W : FVec Ideal ⟨2, ![M, K]⟩ φ₁)
    (X : FVec Ideal ⟨2, ![K, N]⟩ φ₂) (p : Fin M) (c : Fin N) :
    Host.dotGeneral (DotDims.plain M K N) prec W X (ix2 p c) = ∑ k : Fin K, W (ix2 p k) * X (ix2 k c) := by
  simp only [Host.dotGeneral]
  rw [Ideal.dotGeneral_apply]
  exact sum_contr M K N W X p c

end Cert.LibPlainMatmul

end
-- ==== Proof.MlpSpec.lean ====
/-
  A five-layer perceptron, one row at a time.

  Every row of the batch goes through the network alone: a row `x` of 512 entries is multiplied by a 512 x 1024
  weight matrix, the activation is applied entry by entry, three more 1024 x 1024 layers follow in the same way,
  and a last 1024 x 512 product, without activation, gives the row of the result. Nothing here needs the
  entries to be finite: the only operations are sums of products over a finite index and an entrywise function,
  and two programs that compute these sums over different groupings of the rows (one slab of 1024 rows at a time,
  or all 65536 rows at once) compute the same number at every entry.

  The activation is the numerically careful softplus, `max z 0 + log (1 + exp (-|z|))`, guarded by a test
  `z - 0 ≠ z - 0` that is never true on the extended reals; it is kept here in exactly the spelling the host
  program has, with the zero of the guard and of the maximum the value of the all-zero bit pattern.
-/
import proofs.«135746_j69286412419484_1_alg».proof.Proof.LibPlainMatmul
import Idealize.ShloMosaic.PureOps.Ideal.Laws
import Idealize.ShloMosaic.Lib.ValueIdx
import Idealize.ShloMosaic.Lib.Pipeline.Value

noncomputable section

namespace Cert.Mlp

open Idealize.ShloMosaic Idealize.ShloMosaic.ValueIdx
open scoped BigOperators

/-- The value of the all-zero single-precision pattern (it is the real number zero: `z0_eq`). -/
abbrev z0 : EReal := Ideal.ofBits .f32 0x00000000#32

theorem z0_eq : z0 = 0 := Ideal.ofBits_zero_f32

/-- The activation, entry by entry: `z + 0` where `z - 0` differs from itself (nowhere), and elsewhere
    `max z 0 + log (1 + exp (-|z - 0|))`, the absolute value written `max a (-a)`. -/
def act (z : EReal) : EReal :=
  Scalar.select (Ideal.cmp .une (z - z0) (z - z0)) (z + z0)
    (max z z0 + Ideal.log1p (Ideal.exp (-(max (z - z0) (-(z - z0))))))

/-- The same activation with the negation written as a subtraction from zero, and the guard's comparison in its
    ordered form: on the extended reals `0 - a = -a`, and the two comparisons are one. -/
theorem act_sub_form (z : EReal) :
    Scalar.select (Ideal.cmp .one (z - z0) (z - z0)) (z + z0)
      (max z z0 + Ideal.log1p (Ideal.exp (z0 - (max (z - z0) (-(z - z0)))))) = act z := by
  have e : z0 - max (z - z0) (-(z - z0)) = -(max (z - z0) (-(z - z0))) := by
    rw [z0_eq, zero_sub]
  rw [e]
  rfl

/-- One linear layer on a row: entry `c` of `h · W`. -/
def lin {K N : ℕ} (W : Fin K → Fin N → EReal) (h : Fin K → EReal) (c : Fin N) : EReal :=
  ∑ k : Fin K, h k * W k c

/-- The network on one row. -/
def mlpRow (W1 : Fin 512 → Fin 1024 → EReal) (W2 W3 W4 : Fin 1024 → Fin 1024 → EReal)
    (W5 : Fin 1024 → Fin 512 → EReal) (x : Fin 512 → EReal) : Fin 512 → EReal :=
  lin W5 fun j4 => act (lin W4 (fun j3 => act (lin W3 (fun j2 => act (lin W2 (fun j1 => act (lin W1 x j1)) j2)) j3)) j4)

/-- An `a x b` array of extended reals, whatever float format its entries were stored in (every format's
    values are the extended reals here). -/
abbrev Arr (a b : ℕ) : Type := (⟨2, ![a, b]⟩ : Shape).Idx → EReal

/-- A weight array as a matrix of its entries. -/
abbrev mat {K N : ℕ} (w : Arr K N) : Fin K → Fin N → EReal := fun k j => w (ix2 k j)

/-- Row `r` of an array of rows. -/
abbrev rowOf {M K : ℕ} (x : Arr M K) (r : Fin M) : Fin K → EReal := fun k => x (ix2 r k)

/-- The network on every row of an `M x 512` array: the result array, entry by entry. -/
def G (M : ℕ) (x : Arr M 512) (w1 : Arr 512 1024) (w2 w3 w4 : Arr 1024 1024) (w5 : Arr 1024 512) : Arr M 512 :=
  fun i => mlpRow (mat w1) (mat w2) (mat w3) (mat w4) (mat w5) (rowOf x (i 0)) (i 1)

theorem G_apply (M : ℕ) (x : Arr M 512) (w1 : Arr 512 1024) (w2 w3 w4 : Arr 1024 1024) (w5 : Arr 1024 512)
    (r : Fin M) (c : Fin 512) :
    G M x w1 w2 w3 w4 w5 (ix2 r c) = mlpRow (mat w1) (mat w2) (mat w3) (mat w4) (mat w5) (rowOf x r) c := rfl

/-! ## A product of a row-wise known left operand, at an entry -/

/-- A matrix product into a zero accumulator, read at `(p, c)`, when row `p` of the left operand is known. -/
theorem matmul_row {M K N : ℕ} {φ₁ φ₂ : FTy} (a : FVec Ideal ⟨2, ![M, K]⟩ φ₁) (w : FVec Ideal ⟨2, ![K, N]⟩ φ₂)
    (p : Fin M) (row : Fin K → EReal) (ha : ∀ k, a (ix2 p k) = row k) (c : Fin N) :
    matmul (DotDims.plain M K N) none a w (constant (F := Ideal) ⟨2, ![M, N]⟩ .f32 0x00000000#32) (ix2 p c)
      = lin (mat w) row c := by
  rw [LibPlainMatmul.matmul_zero_apply]
  exact Finset.sum_congr rfl fun k _ => by rw [ha k]

/-- The host's product, read at `(p, c)`, when row `p` of the left operand is known. -/
theorem dot_row {M K N : ℕ} {φ₁ φ₂ : FTy} (a : FVec Ideal ⟨2, ![M, K]⟩ φ₁) (w : FVec Ideal ⟨2, ![K, N]⟩ φ₂)
    (p : Fin M) (row : Fin K → EReal) (ha : ∀ k, a (ix2 p k) = row k) (c : Fin N) :
    Host.dotGeneral (DotDims.plain M K N) none a w (ix2 p c) = lin (mat w) row c := by
  rw [LibPlainMatmul.dotGeneral_apply]
  exact Finset.sum_congr rfl fun k _ => by rw [ha k]

/-! ## The activation on a whole array, read at an entry -/

/-- The activation as a kernel body spells it on a vector — zero splatted from a scalar, the negation a
    subtraction from the splat, the result rounded to a narrower format (which changes nothing here) — read at an
    entry: the activation of the entry. -/
theorem kernelAct_apply {S : Shape} (z : FVec Ideal S .f32) (h : FTy.bits .bf16 < FTy.bits .f32) (i : S.Idx) :
    (truncf .bf16
      (select (cmpf .one (subf z (broadcast S (Scalar.ofBits (F := Ideal) .f32 0x00000000#32)))
          (subf z (broadcast S (Scalar.ofBits (F := Ideal) .f32 0x00000000#32))))
        (addf z (broadcast S (Scalar.ofBits (F := Ideal) .f32 0x00000000#32)))
        (addf (maximumf z (broadcast S (Scalar.ofBits (F := Ideal) .f32 0x00000000#32)))
          (log1p (exp (subf (broadcast S (Scalar.ofBits (F := Ideal) .f32 0x00000000#32))
            (absf (subf z (broadcast S (Scalar.ofBits (F := Ideal) .f32 0x00000000#32))))))))) h
      : FVec Ideal S .bf16) i = act (z i) :=
  act_sub_form (z i)

/-- The same when the maximum with zero was computed beforehand and is handed in as its own array. -/
theorem kernelAct_apply' {S : Shape} (z zm : FVec Ideal S .f32) (hm : ∀ i, zm i = max (z i) z0)
    (h : FTy.bits .bf16 < FTy.bits .f32) (i : S.Idx) :
    (truncf .bf16
      (select (cmpf .one (subf z (broadcast S (Scalar.ofBits (F := Ideal) .f32 0x00000000#32)))
          (subf z (broadcast S (Scalar.ofBits (F := Ideal) .f32 0x00000000#32))))
        (addf z (broadcast S (Scalar.ofBits (F := Ideal) .f32 0x00000000#32)))
        (addf zm
          (log1p (exp (subf (broadcast S (Scalar.ofBits (F := Ideal) .f32 0x00000000#32))
            (absf (subf z (broadcast S (Scalar.ofBits (F := Ideal) .f32 0x00000000#32))))))))) h
      : FVec Ideal S .bf16) i = act (z i) := by
  refine Eq.trans ?_ (act_sub_form (z i))
  show Scalar.select _ _ (zm i + _) = Scalar.select _ _ (max (z i) z0 + _)
  rw [hm i]
  rfl

/-! ## One layer of a kernel body, and of the host program, at an entry -/

/-- A kernel layer: the activation of an array whose row `p` is known, rounded, then multiplied by a weight
    block into a zero accumulator. -/
theorem kernel_layer {M K N : ℕ} {φ₂ : FTy} (z : FVec Ideal ⟨2, ![M, K]⟩ .f32) (w : FVec Ideal ⟨2, ![K, N]⟩ φ₂)
    (h : FTy.bits .bf16 < FTy.bits .f32) (p : Fin M) (pre : Fin K → EReal) (hz : ∀ k, z (ix2 p k) = pre k) (c : Fin N) :
    matmul (DotDims.plain M K N) none
      (truncf .bf16
        (select (cmpf .one (subf z (broadcast _ (Scalar.ofBits (F := Ideal) .f32 0x00000000#32)))
            (subf z (broadcast _ (Scalar.ofBits (F := Ideal) .f32 0x00000000#32))))
          (addf z (broadcast _ (Scalar.ofBits (F := Ideal) .f32 0x00000000#32)))
          (addf (maximumf z (broadcast _ (Scalar.ofBits (F := Ideal) .f32 0x00000000#32)))
            (log1p (exp (subf (broadcast _ (Scalar.ofBits (F := Ideal) .f32 0x00000000#32))
              (absf (subf z (broadcast _ (Scalar.ofBits (F := Ideal) .f32 0x00000000#32))))))))) h)
      w (constant (F := Ideal) ⟨2, ![M, N]⟩ .f32 0x00000000#32) (ix2 p c)
      = lin (mat w) (fun k => act (pre k)) c :=
  matmul_row _ w p _ (fun k => (kernelAct_apply z h (ix2 p k)).trans (congrArg act (hz k))) c

/-- The same with the maximum handed in. -/
theorem kernel_layer' {M K N : ℕ} {φ₂ : FTy} (z zm : FVec Ideal ⟨2, ![M, K]⟩ .f32) (hm : ∀ i, zm i = max (z i) z0)
    (w : FVec Ideal ⟨2, ![K, N]⟩ φ₂)
    (h : FTy.bits .bf16 < FTy.bits .f32) (p : Fin M) (pre : Fin K → EReal) (hz : ∀ k, z (ix2 p k) = pre k) (c : Fin N) :
    matmul (DotDims.plain M K N) none
      (truncf .bf16
        (select (cmpf .one (subf z (broadcast _ (Scalar.ofBits (F := Ideal) .f32 0x00000000#32)))
            (subf z (broadcast _ (Scalar.ofBits (F := Ideal) .f32 0x00000000#32))))
          (addf z (broadcast _ (Scalar.ofBits (F := Ideal) .f32 0x00000000#32)))
          (addf zm
            (log1p (exp (subf (broadcast _ (Scalar.ofBits (F := Ideal) .f32 0x00000000#32))
              (absf (subf z (broadcast _ (Scalar.ofBits (F := Ideal) .f32 0x00000000#32))))))))) h)
      w (constant (F := Ideal) ⟨2, ![M, N]⟩ .f32 0x00000000#32) (ix2 p c)
      = lin (mat w) (fun k => act (pre k)) c :=
  matmul_row _ w p _ (fun k => (kernelAct_apply' z zm hm h (ix2 p k)).trans (congrArg act (hz k))) c

end Cert.Mlp

end
-- ==== Proof.KernelBlock.lean ====
/-
  What one slab of the kernel computes.

  At a grid point the kernel body loads a 1024-row slab of the input and the five whole weight arrays (already
  normalized and rounded by the host operations in front of the call), and stores one 1024 x 512 slab of the result:
  five matrix products into zero accumulators with the activation between them. Read at row `p` and column `q` of
  the slab, the stored value is the network applied to row `p` of the loaded input slab, at entry `q`: each product
  reads only row `p` of its left operand, and the activation and the roundings act entry by entry.
-/
import proofs.«135746_j69286412419484_1_alg».proof.Proof.Gen.KernelIdeal.Frame
import proofs.«135746_j69286412419484_1_alg».proof.Proof.MlpSpec

noncomputable section

namespace Cert.KernelIdeal.BlockValue

open Cert.KernelIdeal Cert.KernelIdeal.Gen Idealize.ShloMosaic Idealize.ShloMosaic.ValueIdx Cert.Mlp

/-- The three products' dimension numbers are the plain ones: contract the left operand's columns with the right
    operand's rows. -/
theorem dims_in : dot_S1024x512_S512x1024_S1024x1024_1_0_0_1_n_n = DotDims.plain 1024 512 1024 := rfl
theorem dims_mid : dot_S1024x1024_S1024x1024_S1024x1024_1_0_0_1_n_n = DotDims.plain 1024 1024 1024 := rfl
theorem dims_out : dot_S1024x1024_S1024x512_S1024x512_1_0_0_1_n_n = DotDims.plain 1024 1024 512 := rfl

/-- The first three products, before the third activation: at `(p, j)`, the third layer's sum over the
    activations of the second layer's sums over the activations of the first layer's sums over row `p`. -/
theorem third_pre_apply (x0 : Vec Ideal S1024x512 .f32) (x1 : Vec Ideal S512x1024 .bf16)
    (x2 x3 : Vec Ideal S1024x1024 .bf16) (p : Fin 1024) (j : Fin 1024) :
    k0_pay2 x0 x1 x2 x3 (ix2 p j)
      = lin (mat x3) (fun j2 => act (lin (mat x2) (fun j1 => act (lin (mat x1) (rowOf x0 p) j1)) j2)) j := by
  unfold k0_pay2
  simp only [shapeCast_self]
  rw [dims_in, dims_mid]
  exact kernel_layer _ x3 _ p _
    (fun k2 => kernel_layer _ x2 _ p _
      (fun k1 => matmul_row _ x1 p (rowOf x0 p) (fun _ => rfl) k1) k2) j

/-- The last two products, from the third layer's sums `z` and their maximum with zero `zm`. -/
theorem last_two_apply (z zm : FVec Ideal S1024x1024 .f32) (hm : ∀ i, zm i = max (z i) z0)
    (x4 : Vec Ideal S1024x1024 .bf16) (x5 : Vec Ideal S1024x512 .bf16) (p : Fin 1024) (pre : Fin 1024 → EReal)
    (hz : ∀ k, z (ix2 p k) = pre k) (q : Fin 512) :
    k0_pay1 z (Scalar.ofBits (F := Ideal) .f32 0x00000000#32) zm x4 x5 (ix2 p q)
      = lin (mat x5) (fun j4 => act (lin (mat x4) (fun j3 => act (pre j3)) j4)) q := by
  unfold k0_pay1
  simp only [shapeCast_self]
  rw [dims_mid, dims_out]
  exact kernel_layer _ x5 _ p _ (fun k4 => kernel_layer' z zm hm x4 _ p pre hz k4) q

theorem hz : (![0, 0] : Fin 2 → Nat) = fun _ => 0 := funext fun a => by fin_cases a <;> rfl

/-- THE SLAB: what the body leaves in the result's buffer, at `(p, q)`, is the network on row `p` of the input
    slab with the five loaded weight blocks. -/
theorem slab_apply (x0 : Vec Ideal S1024x512 .f32) (x1 : Vec Ideal S512x1024 .bf16)
    (x2 x3 x4 : Vec Ideal S1024x1024 .bf16) (x5 : Vec Ideal S1024x512 .bf16) (p : Fin 1024) (q : Fin 512) :
    out0_6 x0 x1 x2 x3 x4 x5 (ix2 p q)
      = mlpRow (mat x1) (mat x2) (mat x3) (mat x4) (mat x5) (rowOf x0 p) q := by
  unfold out0_6
  rw [View.canon_unit_zero hz]
  simp only [View.ld_unit_zero (S := S1024x512) hz, View.ld_unit_zero (S := S512x1024) hz,
    View.ld_unit_zero (S := S1024x1024) hz]
  exact last_two_apply _ _ (fun _ => rfl) x4 x5 p _ (fun k => third_pre_apply x0 x1 x2 x3 p k) q

end Cert.KernelIdeal.BlockValue

end
-- ==== Proof.KernelValue.lean ====
/-
  From the slabs to the whole result array.

  The grid has 64 points. Point `t` reads rows `1024 t … 1024 t + 1023` of the input (the input's block index is
  `(t, 0)`), reads each weight array whole (block index `(0, 0)` at every point), and writes rows
  `1024 t … 1024 t + 1023` of the result (block index `(t, 0)`). So what point `t` writes back is exactly slab `t`
  of one whole-array function — the network applied to every row of the input — and the 64 slabs cover all 65536
  rows: after the run the result array is that function of the input and of the five weight arrays as the call
  finds them.
-/
import proofs.«135746_j69286412419484_1_alg».proof.Proof.Gen.KernelIdeal.Value
import proofs.«135746_j69286412419484_1_alg».proof.Proof.KernelBlock

noncomputable section

namespace Cert.KernelIdeal.ArrayValue

open Cert.KernelIdeal Cert.KernelIdeal.Gen Idealize.ShloMosaic Idealize.ShloMosaic.TcCoe Idealize.ShloMosaic.ValueIdx
  Idealize.SL.Sem Cert.Mlp
open Idealize.ShloMosaic.Pipeline (Dat)

variable (m : (ℓ : Loc nD τ sig) → Buf (Elt Ideal) ℓ) (ρ : Dev nD → PrngReg)

/-- The printed index maps, decided over the 64 grid points: the input's and the result's block index is
    `(t, 0)`, every weight array's is `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The whole result as one function of the arrays the call finds: the network on every row of the input. -/
abbrev whole (c : Dev nD) : Arr 65536 512 :=
  G 65536 (V m c main_arg0) (V m c main_v8) (V m c main_v17) (V m c main_v26) (V m c main_v35) (V m c main_v44)

/-! ## Each window's block at a point, read at an entry -/

/-- Row `p` of the input's slab at point `t` is row `1024 t + p` of the input. -/
theorem input_block (c : Dev nD) (t : Fin cfg0.N) (p : Fin 1024) (k : Fin 512) (r : Fin 65536)
    (hr : r.val = t.val * 1024 + p.val) :
    iblk m c 0 t (ix2 p k) = V m c main_arg0 (ix2 r k) := by
  show V m c main_arg0 (((cfg0.win 0).blk t).view.emb (ix2 p k)) = V m c main_arg0 (ix2 r k)
  refine congrArg _ (funext fun a => Fin.ext ?_)
  obtain ⟨e0, e1, -⟩ := idx_facts t
  match a with
  | ⟨0, _⟩ => show win0_0.index t (0 : Fin 2) * 1024 + 1 * p.val = r.val; omega
  | ⟨1, _⟩ => show win0_0.index t (1 : Fin 2) * 512 + 1 * k.val = k.val; omega

/-- Each weight window's block, at every point, is the whole weight array. -/
theorem weight_block1 (c : Dev nD) (t : Fin cfg0.N) (k : Fin 512) (j : Fin 1024) :
    iblk m c 1 t (ix2 k j) = V m c main_v8 (ix2 k j) := by
  show V m c main_v8 (((cfg0.win 1).blk t).view.emb (ix2 k j)) = V m c main_v8 (ix2 k j)
  refine congrArg _ (funext fun a => Fin.ext ?_)
  obtain ⟨-, -, e0, e1, -⟩ := idx_facts t
  match a with
  | ⟨0, _⟩ => show win0_1.index t (0 : Fin 2) * 512 + 1 * k.val = k.val; omega
  | ⟨1, _⟩ => show win0_1.index t (1 : Fin 2) * 1024 + 1 * j.val = j.val; omega

theorem weight_block2 (c : Dev nD) (t : Fin cfg0.N) (k : Fin 1024) (j : Fin 1024) :
    iblk m c 2 t (ix2 k j) = V m c main_v17 (ix2 k j) := by
  show V m c main_v17 (((cfg0.win 2).blk t).view.emb (ix2 k j)) = V m c main_v17 (ix2 k j)
  refine congrArg _ (funext fun a => Fin.ext ?_)
  obtain ⟨-, -, -, -, e0, e1, -⟩ := idx_facts t
  match a with
  | ⟨0, _⟩ => show win0_2.index t (0 : Fin 2) * 1024 + 1 * k.val = k.val; omega
  | ⟨1, _⟩ => show win0_2.index t (1 : Fin 2) * 1024 + 1 * j.val = j.val; omega

theorem weight_block3 (c : Dev nD) (t : Fin cfg0.N) (k : Fin 1024) (j : Fin 1024) :
    iblk m c 3 t (ix2 k j) = V m c main_v26 (ix2 k j) := by
  show V m c main_v26 (((cfg0.win 3).blk t).view.emb (ix2 k j)) = V m c main_v26 (ix2 k j)
  refine congrArg _ (funext fun a => Fin.ext ?_)
  obtain ⟨-, -, -, -, -, -, e0, e1, -⟩ := idx_facts t
  match a with
  | ⟨0, _⟩ => show win0_3.index t (0 : Fin 2) * 1024 + 1 * k.val = k.val; omega
  | ⟨1, _⟩ => show win0_3.index t (1 : Fin 2) * 1024 + 1 * j.val = j.val; omega

theorem weight_block4 (c : Dev nD) (t : Fin cfg0.N) (k : Fin 1024) (j : Fin 1024) :
    iblk m c 4 t (ix2 k j) = V m c main_v35 (ix2 k j) := by
  show V m c main_v35 (((cfg0.win 4).blk t).view.emb (ix2 k j)) = V m c main_v35 (ix2 k j)
  refine congrArg _ (funext fun a => Fin.ext ?_)
  obtain ⟨-, -, -, -, -, -, -, -, e0, e1, -⟩ := idx_facts t
  match a with
  | ⟨0, _⟩ => show win0_4.index t (0 : Fin 2) * 1024 + 1 * k.val = k.val; omega
  | ⟨1, _⟩ => show win0_4.index t (1 : Fin 2) * 1024 + 1 * j.val = j.val; omega

theorem weight_block5 (c : Dev nD) (t : Fin cfg0.N) (k : Fin 1024) (j : Fin 512) :
    iblk m c 5 t (ix2 k j) = V m c main_v44 (ix2 k j) := by
  show V m c main_v44 (((cfg0.win 5).blk t).view.emb (ix2 k j)) = V m c main_v44 (ix2 k j)
  refine congrArg _ (funext fun a => Fin.ext ?_)
  obtain ⟨-, -, -, -, -, -, -, -, -, -, e0, e1, -⟩ := idx_facts t
  match a with
  | ⟨0, _⟩ => show win0_5.index t (0 : Fin 2) * 1024 + 1 * k.val = k.val; omega
  | ⟨1, _⟩ => show win0_5.index t (1 : Fin 2) * 512 + 1 * j.val = j.val; omega

/-! ## What a point writes back, and the cover -/

/-- WHAT POINT `t` WRITES BACK is slab `t` of the whole-array function. -/
theorem flushed_eq (c : Dev nD) (t : Fin cfg0.N) :
    (dats m 0 c).flushed 6 t = ((cfg0.win 6).blk t).view.read (Elt Ideal) (whole m c) := by
  rw [Value.flushed6]
  funext y
  obtain ⟨p, q, rfl⟩ : ∃ (p : Fin 1024) (q : Fin 512), y = ix2 p q := ⟨y 0, y 1, eq_ix2 y⟩
  have ht : t.val < 64 := lt_of_lt_of_eq t.isLt N_0
  have hp : p.val < 1024 := p.isLt
  obtain ⟨r, hr⟩ : ∃ r : Fin 65536, r.val = t.val * 1024 + p.val := ⟨⟨t.val * 1024 + p.val, by omega⟩, rfl⟩
  show out0_6 (iblk m c 0 t) (iblk m c 1 t) (iblk m c 2 t) (iblk m c 3 t) (iblk m c 4 t) (iblk m c 5 t) (ix2 p q)
    = whole m c (((cfg0.win 6).blk t).view.emb (ix2 p q))
  have hemb : ((cfg0.win 6).blk t).view.emb (ix2 p q) = ix2 r q := by
    refine funext fun a => Fin.ext ?_
    obtain ⟨-, -, -, -, -, -, -, -, -, -, -, -, e0, e1⟩ := idx_facts t
    match a with
    | ⟨0, _⟩ => show win0_6.index t (0 : Fin 2) * 1024 + 1 * p.val = r.val; omega
    | ⟨1, _⟩ => show win0_6.index t (1 : Fin 2) * 512 + 1 * q.val = q.val; omega
  rw [hemb]
  refine (BlockValue.slab_apply (iblk m c 0 t) (iblk m c 1 t) (iblk m c 2 t) (iblk m c 3 t) (iblk m c 4 t)
    (iblk m c 5 t) p q).trans ?_
  have h0 : rowOf (iblk m c 0 t) p = rowOf (V m c main_arg0) r := funext fun k => input_block m c t p k r hr
  have h1 : mat (iblk m c 1 t) = mat (V m c main_v8) := funext fun k => funext fun j => weight_block1 m c t k j
  have h2 : mat (iblk m c 2 t) = mat (V m c main_v17) := funext fun k => funext fun j => weight_block2 m c t k j
  have h3 : mat (iblk m c 3 t) = mat (V m c main_v26) := funext fun k => funext fun j => weight_block3 m c t k j
  have h4 : mat (iblk m c 4 t) = mat (V m c main_v35) := funext fun k => funext fun j => weight_block4 m c t k j
  have h5 : mat (iblk m c 5 t) = mat (V m c main_v44) := funext fun k => funext fun j => weight_block5 m c t k j
  rw [h0, h1, h2, h3, h4, h5]
  rfl

/-- An index of the result array is in point `t`'s block iff each coordinate is in the block's range. -/
theorem mem_blk (t : Fin cfg0.N) (i : S65536x512.Idx) :
    i ∈ ((cfg0.win 6).blk t).view.set ↔ ∀ a : Fin 2, win0_6.index t a * S1024x512.size a ≤ (i a).val
      ∧ (i a).val < win0_6.index t a * S1024x512.size a + S1024x512.size a := by
  show i ∈ ((View.whole main_v45).slice (win0_6.rect t)).set ↔ _
  rw [View.set_slice_whole, Rect.mem_set_unit]
  exact Iff.rfl

/-- Every index of the result is in some point's slab: row `r` is in the slab of point `r / 1024`. -/
theorem cover (i : S65536x512.Idx) :
    ∃ t : Fin cfg0.N, (cfg0.win 6).flush t = true ∧ i ∈ ((cfg0.win 6).blk t).view.set := by
  have hi0 : (i 0).val < 65536 := (i 0).isLt
  have hi1 : (i 1).val < 512 := (i 1).isLt
  obtain ⟨t, ht⟩ : ∃ t : Fin cfg0.N, t.val = (i 0).val / 1024 :=
    ⟨⟨(i 0).val / 1024, lt_of_lt_of_eq (by omega) N_0.symm⟩, rfl⟩
  refine ⟨t, flush0_6 t, ?_⟩
  rw [mem_blk]
  obtain ⟨-, -, -, -, -, -, -, -, -, -, -, -, e0, e1⟩ := idx_facts t
  intro a
  match a with
  | ⟨0, _⟩ =>
    show win0_6.index t (0 : Fin 2) * 1024 ≤ (i 0).val ∧ (i 0).val < win0_6.index t (0 : Fin 2) * 1024 + 1024
    omega
  | ⟨1, _⟩ =>
    show win0_6.index t (1 : Fin 2) * 512 ≤ (i 1).val ∧ (i 1).val < win0_6.index t (1 : Fin 2) * 512 + 512
    omega

/-- THE RESULT ARRAY after the run is the whole-array function. -/
theorem final (c : Dev nD) : (dats m 0 c).arrAt 6 cfg0.N = whole m c :=
  (dats m 0 c).arrAt_eq_of_cover 6 (whole m c) (fun t _ => flushed_eq m c t) cover

/-- The kernel's run, read: the result array is the network on every row of the input, with the weight arrays
    as the call finds them; the arguments end unchanged. -/
theorem run : θ_run defs (onTc (τ := τ) (main (F := Ideal))) ⟨m, fun _ => 0, ρ⟩ fun r => ∀ c : Dev nD,
      r.2.mem ((c : Thread nD τ).loc main_v45) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelIdeal.ArrayValue

end
-- ==== Proof.KernelWeights.lean ====
/-
  The weight arrays the call finds.

  In front of the call the host normalizes each weight array: every column `j` of `v` is scaled by
  `g j / sqrt (Σ_k v k j ²)`, and the product is rounded to the narrower format, which changes nothing on the extended
  reals. Each of the five arrays the call reads is that one function of its two argument arrays (nine host
  operations and the rounding). The function is kept whole here: nothing in the comparison of the two programs
  looks inside it.
-/
import proofs.«135746_j69286412419484_1_alg».proof.Proof.Gen.KernelIdeal.Frame
import Idealize.ShloMosaic.Lib.StableHlo.Run
import Idealize.ShloMosaic.PureOps.Ideal

noncomputable section

namespace Cert.KernelIdeal.Weights

open Cert.KernelIdeal Cert.KernelIdeal.Gen Idealize.ShloMosaic Idealize.ShloMosaic.TcCoe Idealize.SL.Sem
  Idealize.ShloMosaic.StableHlo

/-- The normalized and rounded 512 x 1024 weight array, as the host operations in front of the call compute it. -/
def normIn (v : FVec Ideal S512x1024 .f32) (g : FVec Ideal S1024 .f32) : FVec Ideal S512x1024 .bf16 :=
  truncf .bf16 (mulf v (broadcastInDim S512x1024 ![0, 1] bcast_S1x1024_S512x1024_0_1
    (Host.divf (broadcastInDim S1x1024 ![1] bcast_S1024_S1x1024_1 g)
      (Host.sqrt (broadcastInDim S1x1024 ![1] bcast_S1024_S1x1024_1
        (Host.reduceAdd (mulf v v) (constant (F := Ideal) S_ .f32 0x00000000#32) reducesTo_S512x1024_S1024_d0 h_S_)))))) bitsLt_bf16_f32

/-- The same for a 1024 x 1024 array. -/
def normMid (v : FVec Ideal S1024x1024 .f32) (g : FVec Ideal S1024 .f32) : FVec Ideal S1024x1024 .bf16 :=
  truncf .bf16 (mulf v (broadcastInDim S1024x1024 ![0, 1] bcast_S1x1024_S1024x1024_0_1
    (Host.divf (broadcastInDim S1x1024 ![1] bcast_S1024_S1x1024_1 g)
      (Host.sqrt (broadcastInDim S1x1024 ![1] bcast_S1024_S1x1024_1
        (Host.reduceAdd (mulf v v) (constant (F := Ideal) S_ .f32 0x00000000#32) reducesTo_S1024x1024_S1024_d0 h_S_)))))) bitsLt_bf16_f32

/-- The same for the 1024 x 512 array. -/
def normOut (v : FVec Ideal S1024x512 .f32) (g : FVec Ideal S512 .f32) : FVec Ideal S1024x512 .bf16 :=
  truncf .bf16 (mulf v (broadcastInDim S1024x512 ![0, 1] bcast_S1x512_S1024x512_0_1
    (Host.divf (broadcastInDim S1x512 ![1] bcast_S512_S1x512_1 g)
      (Host.sqrt (broadcastInDim S1x512 ![1] bcast_S512_S1x512_1
        (Host.reduceAdd (mulf v v) (constant (F := Ideal) S_ .f32 0x00000000#32) reducesTo_S1024x512_S512_d0 h_S_)))))) bitsLt_bf16_f32

variable (m : (ℓ : Loc nD τ sig) → Buf (Elt Ideal) ℓ) (c : Dev nD)

/-- What the call finds in each of its five weight operands. -/
theorem found1 : (V m c main_v8 : S512x1024.Idx → EReal)
    = normIn (m ((c.tc : Thread nD τ).loc main_arg1)) (m ((c.tc : Thread nD τ).loc main_arg2)) := by
  dsimp only [V, hostOps0]; after_results_simp; rfl

theorem found2 : (V m c main_v17 : S1024x1024.Idx → EReal)
    = normMid (m ((c.tc : Thread nD τ).loc main_arg3)) (m ((c.tc : Thread nD τ).loc main_arg4)) := by
  dsimp only [V, hostOps0]; after_results_simp; rfl

theorem found3 : (V m c main_v26 : S1024x1024.Idx → EReal)
    = normMid (m ((c.tc : Thread nD τ).loc main_arg5)) (m ((c.tc : Thread nD τ).loc main_arg6)) := by
  dsimp only [V, hostOps0]; after_results_simp; rfl

theorem found4 : (V m c main_v35 : S1024x1024.Idx → EReal)
    = normMid (m ((c.tc : Thread nD τ).loc main_arg7)) (m ((c.tc : Thread nD τ).loc main_arg8)) := by
  dsimp only [V, hostOps0]; after_results_simp; rfl

theorem found5 : (V m c main_v44 : S1024x512.Idx → EReal)
    = normOut (m ((c.tc : Thread nD τ).loc main_arg9)) (m ((c.tc : Thread nD τ).loc main_arg10)) := by
  dsimp only [V, hostOps0]; after_results_simp; rfl

end Cert.KernelIdeal.Weights

end
-- ==== Proof.RefValue.lean ====
/-
  What the host program's result holds.

  The host program applies the same five layers to the whole 65536 x 512 input at once: a `dot_general` per layer
  and, between them, the activation as a called function over the whole 65536 x 1024 array. Read at row `r` and
  column `c`, its result is the network applied to row `r` of the input, at entry `c`, with the five normalized
  weight arrays as the matrices: each product reads only row `r` of its left operand and the activation acts
  entry by entry.
-/
import proofs.«135746_j69286412419484_1_alg».proof.Proof.RefRun
import proofs.«135746_j69286412419484_1_alg».proof.Proof.MlpSpec

noncomputable section

namespace Cert.ReferenceIdeal.RefValue

open Cert.ReferenceIdeal Cert.ReferenceIdeal.Gen Cert.ReferenceIdeal.ValueP Idealize.ShloMosaic
  Idealize.ShloMosaic.ValueIdx Idealize.SL.Sem Cert.Mlp

/-- The five products' dimension numbers are the plain ones. -/
theorem dims_in : dot_S65536x512_S512x1024_S65536x1024_1_0_0_1_n_n = DotDims.plain 65536 512 1024 := rfl
theorem dims_mid : dot_S65536x1024_S1024x1024_S65536x1024_1_0_0_1_n_n = DotDims.plain 65536 1024 1024 := rfl
theorem dims_out : dot_S65536x1024_S1024x512_S65536x512_1_0_0_1_n_n = DotDims.plain 65536 1024 512 := rfl

/-- The activation's zero array holds the zero pattern's value everywhere. -/
theorem zeros_apply (i : S65536x1024.Idx) : zeros (F := Ideal) i = z0 := by
  unfold zeros
  exact broadcastInDim_apply _ bcast_S_S65536x1024 _ i (fun a => a.elim0) (fun a => a.elim0)

/-- The called activation, read at an entry: the activation of the entry. -/
theorem softplus_apply (z : FVec Ideal S65536x1024 .f32) (i : S65536x1024.Idx) :
    softplus (F := Ideal) z i = act (z i) := by
  unfold softplus
  show Scalar.select (Ideal.cmp .une (z i - zeros (F := Ideal) i) (z i - zeros (F := Ideal) i)) (z i + zeros (F := Ideal) i)
    (max (z i) (zeros (F := Ideal) i)
      + Ideal.log1p (Ideal.exp (-(max (z i - zeros (F := Ideal) i) (-(z i - zeros (F := Ideal) i)))))) = _
  rw [zeros_apply]
  rfl

/-! ## The normalized weight arrays, each as one function of its two argument arrays -/

/-- The normalized 512 x 1024 weight array: column `j` of `v` scaled by `g j / sqrt (Σ_k v k j ²)`, as the host
    operations compute it. Kept whole: nothing in the comparison of the two programs looks inside it. -/
def normIn (v : FVec Ideal S512x1024 .f32) (g : FVec Ideal S1024 .f32) : FVec Ideal S512x1024 .f32 :=
  mulf v (broadcastInDim S512x1024 ![0, 1] bcast_S1x1024_S512x1024_0_1
    (Host.divf (broadcastInDim S1x1024 ![1] bcast_S1024_S1x1024_1 g)
      (Host.sqrt (broadcastInDim S1x1024 ![1] bcast_S1024_S1x1024_1
        (Host.reduceAdd (mulf v v) (constant (F := Ideal) S_ .f32 0x00000000#32) reducesTo_S512x1024_S1024_d0 h_S_)))))

/-- The same for a 1024 x 1024 array. -/
def normMid (v : FVec Ideal S1024x1024 .f32) (g : FVec Ideal S1024 .f32) : FVec Ideal S1024x1024 .f32 :=
  mulf v (broadcastInDim S1024x1024 ![0, 1] bcast_S1x1024_S1024x1024_0_1
    (Host.divf (broadcastInDim S1x1024 ![1] bcast_S1024_S1x1024_1 g)
      (Host.sqrt (broadcastInDim S1x1024 ![1] bcast_S1024_S1x1024_1
        (Host.reduceAdd (mulf v v) (constant (F := Ideal) S_ .f32 0x00000000#32) reducesTo_S1024x1024_S1024_d0 h_S_)))))

/-- The same for the 1024 x 512 array. -/
def normOut (v : FVec Ideal S1024x512 .f32) (g : FVec Ideal S512 .f32) : FVec Ideal S1024x512 .f32 :=
  mulf v (broadcastInDim S1024x512 ![0, 1] bcast_S1x512_S1024x512_0_1
    (Host.divf (broadcastInDim S1x512 ![1] bcast_S512_S1x512_1 g)
      (Host.sqrt (broadcastInDim S1x512 ![1] bcast_S512_S1x512_1
        (Host.reduceAdd (mulf v v) (constant (F := Ideal) S_ .f32 0x00000000#32) reducesTo_S1024x512_S512_d0 h_S_)))))

variable (m : (ℓ : Loc nD τ sig) → Buf (Elt Ideal) ℓ) (c : Dev nD)

theorem w1_eq : w1 (F := Ideal) m c
    = normIn (m ((c.tc : Thread nD τ).loc main_arg1)) (m ((c.tc : Thread nD τ).loc main_arg2)) := rfl
theorem w2_eq : w2 (F := Ideal) m c
    = normMid (m ((c.tc : Thread nD τ).loc main_arg3)) (m ((c.tc : Thread nD τ).loc main_arg4)) := rfl
theorem w3_eq : w3 (F := Ideal) m c
    = normMid (m ((c.tc : Thread nD τ).loc main_arg5)) (m ((c.tc : Thread nD τ).loc main_arg6)) := rfl
theorem w4_eq : w4 (F := Ideal) m c
    = normMid (m ((c.tc : Thread nD τ).loc main_arg7)) (m ((c.tc : Thread nD τ).loc main_arg8)) := rfl
theorem w5_eq : w5 (F := Ideal) m c
    = normOut (m ((c.tc : Thread nD τ).loc main_arg9)) (m ((c.tc : Thread nD τ).loc main_arg10)) := rfl

/-- Each hidden layer after its activation, at an entry of row `r`. -/
theorem hid1_apply (r : Fin 65536) (j : Fin 1024) :
    hid1 (F := Ideal) m c (ix2 r j)
      = act (lin (mat (w1 (F := Ideal) m c)) (rowOf (m ((c.tc : Thread nD τ).loc main_arg0)) r) j) := by
  unfold hid1
  rw [softplus_apply]
  unfold pre1
  rw [dims_in]
  exact congrArg act (dot_row _ _ r _ (fun _ => rfl) j)

theorem hid2_apply (r : Fin 65536) (j : Fin 1024) :
    hid2 (F := Ideal) m c (ix2 r j)
      = act (lin (mat (w2 (F := Ideal) m c)) (fun j1 => act (lin (mat (w1 (F := Ideal) m c))
          (rowOf (m ((c.tc : Thread nD τ).loc main_arg0)) r) j1)) j) := by
  unfold hid2
  rw [softplus_apply]
  unfold pre2
  rw [dims_mid]
  exact congrArg act (dot_row _ _ r _ (fun k => hid1_apply m c r k) j)

theorem hid3_apply (r : Fin 65536) (j : Fin 1024) :
    hid3 (F := Ideal) m c (ix2 r j)
      = act (lin (mat (w3 (F := Ideal) m c)) (fun j2 => act (lin (mat (w2 (F := Ideal) m c)) (fun j1 => act (lin (mat (w1 (F := Ideal) m c))
          (rowOf (m ((c.tc : Thread nD τ).loc main_arg0)) r) j1)) j2)) j) := by
  unfold hid3
  rw [softplus_apply]
  unfold pre3
  rw [dims_mid]
  exact congrArg act (dot_row _ _ r _ (fun k => hid2_apply m c r k) j)

theorem hid4_apply (r : Fin 65536) (j : Fin 1024) :
    hid4 (F := Ideal) m c (ix2 r j)
      = act (lin (mat (w4 (F := Ideal) m c)) (fun j3 => act (lin (mat (w3 (F := Ideal) m c)) (fun j2 => act (lin (mat (w2 (F := Ideal) m c)) (fun j1 => act (lin (mat (w1 (F := Ideal) m c))
          (rowOf (m ((c.tc : Thread nD τ).loc main_arg0)) r) j1)) j2)) j3)) j) := by
  unfold hid4
  rw [softplus_apply]
  unfold pre4
  rw [dims_mid]
  exact congrArg act (dot_row _ _ r _ (fun k => hid3_apply m c r k) j)

/-- THE RESULT: the host program's result array is the network on every row of the input, with the normalized
    weight arrays as the five matrices. -/
theorem result_eq :
    res_main_v48 (F := Ideal) m c
      = G 65536 (m ((c.tc : Thread nD τ).loc main_arg0)) (w1 (F := Ideal) m c) (w2 (F := Ideal) m c)
          (w3 (F := Ideal) m c) (w4 (F := Ideal) m c) (w5 (F := Ideal) m c) := by
  funext i
  obtain ⟨r, q, rfl⟩ : ∃ (r : Fin 65536) (q : Fin 512), i = ix2 r q := ⟨i 0, i 1, eq_ix2 i⟩
  rw [G_apply]
  unfold res_main_v48
  rw [dims_out]
  exact dot_row _ _ r _ (fun k => hid4_apply m c r k) q

end Cert.ReferenceIdeal.RefValue

end
-- ==== Proof.lean ====
/-
  A five-layer perceptron computed slab by slab in one kernel call against the same network computed on the whole
  batch by host operations.

  Both programs first normalize the five weight arrays by the same host operations (each column scaled by its gain
  over its Euclidean norm); the kernel's program also rounds them to a narrower format, which is the identity on
  the extended reals. Then the kernel's call, at each of its 64 grid points, takes a slab of 1024 rows of the
  input through the five layers — matrix products into zero accumulators, the softplus activation between them,
  roundings that change nothing — and writes the matching slab of the result, while the host program takes all
  65536 rows through five `dot_general`s and four calls of the activation function.

  Each row of the result depends on the same row of the input only: entry `(r, c)` is, on both sides, the network
  of `Proof/MlpSpec.lean` applied to row `r` of the input, read at `c`, with the normalized weights as the five
  matrices — sums of products over a finite index and an entrywise activation, grouped in the same way on both
  sides, so the two numbers are equal on the extended reals whatever the entries are (no finiteness is used).
  The two spellings of the activation differ in one place, `0 - a` against `-a`, and in the form of a comparison
  that is never true; both are read as one function there.

  The kernel's side: what a slab holds (`Proof/KernelBlock.lean`), the slabs put together into the whole array
  (`Proof/KernelValue.lean`), and what the call finds in its weight operands (`Proof/KernelWeights.lean`). The host
  program's side: its run (`Proof/RefRun.lean`) and its result read row by row (`Proof/RefValue.lean`).
-/
import proofs.«135746_j69286412419484_1_alg».proof.Defs
import proofs.«135746_j69286412419484_1_alg».proof.Proof.Gen.Kernel
import proofs.«135746_j69286412419484_1_alg».proof.Proof.Gen.Kernel.Skeleton
import proofs.«135746_j69286412419484_1_alg».proof.Proof.Gen.Kernel.Launch
import proofs.«135746_j69286412419484_1_alg».proof.Proof.Gen.Kernel.Points
import proofs.«135746_j69286412419484_1_alg».proof.Proof.Gen.Kernel.Frame
import proofs.«135746_j69286412419484_1_alg».proof.Proof.Gen.KernelIdeal
import proofs.«135746_j69286412419484_1_alg».proof.Proof.Gen.KernelIdeal.Skeleton
import proofs.«135746_j69286412419484_1_alg».proof.Proof.Gen.KernelIdeal.Launch
import proofs.«135746_j69286412419484_1_alg».proof.Proof.Gen.KernelIdeal.Points
import proofs.«135746_j69286412419484_1_alg».proof.Proof.Gen.KernelIdeal.Frame
import proofs.«135746_j69286412419484_1_alg».proof.Proof.Gen.KernelIdeal.Value
import proofs.«135746_j69286412419484_1_alg».proof.Proof.Gen.ReferenceIdeal
import proofs.«135746_j69286412419484_1_alg».proof.Proof.Gen.Pre_finite_inputs
import proofs.«135746_j69286412419484_1_alg».proof.Proof.KernelValue
import proofs.«135746_j69286412419484_1_alg».proof.Proof.KernelWeights
import proofs.«135746_j69286412419484_1_alg».proof.Proof.RefValue
import Idealize.ShloMosaic.Adequacy
import Idealize.ShloMosaic.Init

noncomputable section

namespace Cert.Proof

open Idealize.ShloMosaic Idealize.SL.Sem Cert.Mlp

/-! ## The frames and the idealization -/

theorem frame_kernel : Cert.frame_Kernel := fun m ρ _ => Cert.Kernel.Gen.frame m ρ

theorem frame_ideal : Cert.frame_KernelIdeal := fun m ρ _ => Cert.KernelIdeal.Gen.frame m ρ

/-- The host program's frame is its run with the result dropped. -/
theorem frame_reference : Cert.frame_ReferenceIdeal := fun m ρ _ =>
  (θ_run Cert.ReferenceIdeal.defs _ _).mono (fun _ h c => (h c).2)
    (Cert.ReferenceIdeal.ValueP.run (F := Ideal) m ρ)

/-- The idealization rewrote no operation. -/
theorem preserves : Cert.preserves_Kernel_KernelIdeal := trivial

/-! ## The two programs' weights are one function of the argument arrays -/

/-- The kernel program's normalization ends with a rounding the host program's lacks; on the extended reals the
    rounding is the identity, so the two are one function. -/
theorem normIn_eq (v : FVec Ideal Cert.KernelIdeal.S512x1024 .f32) (g : FVec Ideal Cert.KernelIdeal.S1024 .f32) :
    (Cert.KernelIdeal.Weights.normIn v g : Arr 512 1024) = Cert.ReferenceIdeal.RefValue.normIn v g := rfl

theorem normMid_eq (v : FVec Ideal Cert.KernelIdeal.S1024x1024 .f32) (g : FVec Ideal Cert.KernelIdeal.S1024 .f32) :
    (Cert.KernelIdeal.Weights.normMid v g : Arr 1024 1024) = Cert.ReferenceIdeal.RefValue.normMid v g := rfl

theorem normOut_eq (v : FVec Ideal Cert.KernelIdeal.S1024x512 .f32) (g : FVec Ideal Cert.KernelIdeal.S512 .f32) :
    (Cert.KernelIdeal.Weights.normOut v g : Arr 1024 512) = Cert.ReferenceIdeal.RefValue.normOut v g := rfl

/-! ## The value claim -/

/-- From memories that agree on the arguments both programs end with the network applied to every row of the
    input: the kernel's result array by its slabs, the host program's by its run read row by row. -/
theorem algebraic : Cert.algebraic_KernelIdeal_ReferenceIdeal := by
  intro m ρ m' ρ' _ hagree
  refine ⟨fun c => Cert.KernelIdeal.ArrayValue.whole m c, Cert.KernelIdeal.ArrayValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9, a10⟩ := hagree c
  rw [Cert.ReferenceIdeal.RefValue.result_eq, Cert.ReferenceIdeal.RefValue.w1_eq,
    Cert.ReferenceIdeal.RefValue.w2_eq, Cert.ReferenceIdeal.RefValue.w3_eq, Cert.ReferenceIdeal.RefValue.w4_eq,
    Cert.ReferenceIdeal.RefValue.w5_eq, a0, a1, a2, a3, a4, a5, a6, a7, a8, a9, a10]
  show _ = G 65536 (Cert.KernelIdeal.Gen.V m c Cert.KernelIdeal.main_arg0)
    (Cert.KernelIdeal.Gen.V m c Cert.KernelIdeal.main_v8) (Cert.KernelIdeal.Gen.V m c Cert.KernelIdeal.main_v17)
    (Cert.KernelIdeal.Gen.V m c Cert.KernelIdeal.main_v26) (Cert.KernelIdeal.Gen.V m c Cert.KernelIdeal.main_v35)
    (Cert.KernelIdeal.Gen.V m c Cert.KernelIdeal.main_v44)
  rw [Cert.KernelIdeal.Gen.V_main_arg0, Cert.KernelIdeal.Weights.found1, Cert.KernelIdeal.Weights.found2,
    Cert.KernelIdeal.Weights.found3, Cert.KernelIdeal.Weights.found4, Cert.KernelIdeal.Weights.found5,
    normIn_eq, normMid_eq, normMid_eq, normMid_eq, normOut_eq]

/-! ## The claim -/

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
